-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S1000x2048 : Shape := ⟨2, ![1000, 2048]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S16x16 .f32) (main_arg5 : FVec F S16 .f32) (main_arg6 : FVec F S16x1 .f32) (main_arg7 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg6
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg7 main_v33

def fn {F : FTy → Type} [FloatOps F] (main_arg0 : FVec F S8192x2048 .f32) (main_arg1 : FVec F S1000x2048 .f32) (main_arg2 : FVec F S1x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S8192x2048 : Shape := ⟨2, ![8192, 2048]⟩
abbrev S1000x2048 : Shape := ⟨2, ![1000, 2048]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩
abbrev S1000 : Shape := ⟨1, ![1000]⟩
abbrev S1000x1 : Shape := ⟨2, ![1000, 1]⟩
abbrev S8192x1000 : Shape := ⟨2, ![8192, 1000]⟩
abbrev S32x2048 : Shape := ⟨2, ![32, 2048]⟩
abbrev S32x1000 : Shape := ⟨2, ![32, 1000]⟩
abbrev S32 : Shape := ⟨1, ![32]⟩
abbrev S32x1 : Shape := ⟨2, ![32, 1]⟩
abbrev S32x1000x1 : Shape := ⟨3, ![32, 1000, 1]⟩
abbrev S1x1x16 : Shape := ⟨3, ![1, 1, 16]⟩
abbrev S32x1000x16 : Shape := ⟨3, ![32, 1000, 16]⟩
abbrev S32000x16 : Shape := ⟨2, ![32000, 16]⟩
abbrev S32000x1 : Shape := ⟨2, ![32000, 1]⟩
abbrev S1x1 : Shape := ⟨2, ![1, 1]⟩

abbrev nBuf : Space → Nat
  | .hbm => 20
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1000x2048, .f32⟩
  | .hbm, ⟨2, _⟩ => ⟨S1x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S1000x2048, .f32⟩
  | .hbm, ⟨9, _⟩ => ⟨S_, .f32⟩
  | .hbm, ⟨10, _⟩ => ⟨S1000, .f32⟩
  | .hbm, ⟨11, _⟩ => ⟨S1000x1, .f32⟩
  | .hbm, ⟨12, _⟩ => ⟨S_, .f32⟩
  | .hbm, ⟨13, _⟩ => ⟨S1000x1, .f32⟩
  | .hbm, ⟨14, _⟩ => ⟨S1000x1, .f32⟩
  | .hbm, ⟨15, _⟩ => ⟨S1000x1, .f32⟩
  | .hbm, ⟨16, _⟩ => ⟨S1000x2048, .f32⟩
  | .hbm, ⟨17, _⟩ => ⟨S1000x2048, .f32⟩
  | .hbm, ⟨18, _⟩ => ⟨S1000x2048, .bf16⟩
  | .hbm, ⟨19, _⟩ => ⟨S8192x1000, .f32⟩
  | .local _ .vmem, ⟨0, _⟩ => ⟨S32x2048, .f32⟩
  | .local _ .vmem, ⟨1, _⟩ => ⟨S32x2048, .f32⟩
  | .local _ .vmem, ⟨2, _⟩ => ⟨S1000x2048, .bf16⟩
  | .local _ .vmem, ⟨3, _⟩ => ⟨S1x16, .f32⟩
  | .local _ .vmem, ⟨4, _⟩ => ⟨S16, .f32⟩
  | .local _ .vmem, ⟨5, _⟩ => ⟨S16x16, .f32⟩
  | .local _ .vmem, ⟨6, _⟩ => ⟨S16, .f32⟩
  | .local _ .vmem, ⟨7, _⟩ => ⟨S16x1, .f32⟩
  | .local _ .vmem, ⟨8, _⟩ => ⟨S1, .f32⟩
  | .local _ .vmem, ⟨9, _⟩ => ⟨S32x1000, .f32⟩
  | .local _ .vmem, ⟨10, _⟩ => ⟨S32x1000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x1000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S1000x2048_S1000_d1 : S1000x2048.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x2048_0_1 : S1000x1.BroadcastsInDim S1000x2048 (![0, 1] : Fin 2 → Fin S1000x2048.rank)
  bitsLt_bf16_f32 : FTy.bits .bf16 < FTy.bits .f32
  inb_S32x2048_S32x2048_0_0 : ∀ a, (![0, 0] : Fin 2 → Nat) a + S32x2048.size a ≤ S32x2048.size a
  h_S32x2048 : 0 < S32x2048.numel
  reduces_S32x2048_S32 : S32x2048.Reduces [1] S32
  shapeCasts_S32_S32x1 : S32.ShapeCasts S32x1
  broadcasts_S32x1_S32x2048 : S32x1.Broadcasts S32x2048
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S1x16_S1x16_0_0 : ∀ a, (![0, 0] : Fin 2 → Nat) a + S1x16.size a ≤ S1x16.size a
  h_S1x16 : 0 < S1x16.numel
  shapeCasts_S1x16_S16 : S1x16.ShapeCasts S16
  inb_S16_S16_0 : ∀ a, (![0] : Fin 1 → Nat) a + S16.size a ≤ S16.size a
  h_S16 : 0 < S16.numel
  shapeCasts_S32x1000_S32x1000x1 : S32x1000.ShapeCasts S32x1000x1
  shapeCasts_S16_S1x1x16 : S16.ShapeCasts S1x1x16
  broadcasts_S32x1000x1_S32x1000x16 : S32x1000x1.Broadcasts S32x1000x16
  broadcasts_S1x1x16_S32x1000x16 : S1x1x16.Broadcasts S32x1000x16
  shapeCasts_S32x1000x16_S32000x16 : S32x1000x16.ShapeCasts S32000x16
  inb_S16x16_S16x16_0_0 : ∀ a, (![0, 0] : Fin 2 → Nat) a + S16x16.size a ≤ S16x16.size a
  h_S16x16 : 0 < S16x16.numel
  shapeCasts_S16_S1x16 : S16.ShapeCasts S1x16
  broadcasts_S1x16_S32000x16 : S1x16.Broadcasts S32000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S32000x1 : S1x1.Broadcasts S32000x1
  shapeCasts_S32000x1_S32x1000 : S32000x1.ShapeCasts S32x1000
  reduces_S32x1000_S32 : S32x1000.Reduces [1] S32
  broadcasts_S32x1_S32x1000 : S32x1.Broadcasts S32x1000
  inb_S32x1000_S32x1000_0_0 : ∀ a, (![0, 0] : Fin 2 → Nat) a + S32x1000.size a ≤ S32x1000.size a
  h_S32x1000 : 0 < S32x1000.numel
  dot_S32x2048_S1000x2048_S32x1000_1_1_0_0_n_n_wf : DotDims.WF S32x2048 S1000x2048 S32x1000 [1] [1] [0] [0] [] []
  dot_S32000x16_S16x16_S32000x16_1_0_0_1_n_n_wf : DotDims.WF S32000x16 S16x16 S32000x16 [1] [0] [0] [1] [] []
  dot_S32000x16_S16x1_S32000x1_1_0_0_1_n_n_wf : DotDims.WF S32000x16 S16x1 S32000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S8192x2048.size a
  hwx0_0 : ∀ i : grid0.Coords, EltTy.bits .f32 = 32 ∨ (Rect.block (s := S8192x2048) S32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S1000x2048.size a
  hwx0_1 : ∀ i : grid0.Coords, EltTy.bits .bf16 = 32 ∨ (Rect.block (s := S1000x2048) S1000x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x1000.size a ≤ S8192x1000.size a
  hwx0_8 : ∀ i : grid0.Coords, EltTy.bits .f32 = 32 ∨ (Rect.block (s := S8192x1000) S32x1000.size (cc0_transform_8 i) (hinb0_8 i)).WholeWords (EltTy.packing .f32)

variable [Facts₀]

def dot_S32x2048_S1000x2048_S32x1000_1_1_0_0_n_n : DotDims S32x2048 S1000x2048 S32x1000 where
  lhsContracting := [1]
  rhsContracting := [1]
  lhsNonContracting := [0]
  rhsNonContracting := [0]
  lhsBatch := []
  rhsBatch := []
  wf := dot_S32x2048_S1000x2048_S32x1000_1_1_0_0_n_n_wf
def dot_S32000x16_S16x16_S32000x16_1_0_0_1_n_n : DotDims S32000x16 S16x16 S32000x16 where
  lhsContracting := [1]
  rhsContracting := [0]
  lhsNonContracting := [0]
  rhsNonContracting := [1]
  lhsBatch := []
  rhsBatch := []
  wf := dot_S32000x16_S16x16_S32000x16_1_0_0_1_n_n_wf
def dot_S32000x16_S16x1_S32000x1_1_0_0_1_n_n : DotDims S32000x16 S16x1 S32000x1 where
  lhsContracting := [1]
  rhsContracting := [0]
  lhsNonContracting := [0]
  rhsNonContracting := [1]
  lhsBatch := []
  rhsBatch := []
  wf := dot_S32000x16_S16x1_S32000x1_1_0_0_1_n_n_wf

abbrev win0_0 : Pipeline.Window sig grid0 :=
  Pipeline.Window.ofSpec (Memref.whole main_arg0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1000x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S32x1000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S1000x2048 : Shape := ⟨2, ![1000, 2048]⟩
abbrev S1x16 : Shape := ⟨2, ![1, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩
abbrev S8192 : Shape := ⟨1, ![8192]⟩
abbrev S8192x1 : Shape := ⟨2, ![8192, 1]⟩
abbrev S1000 : Shape := ⟨1, ![1000]⟩
abbrev S1000x1 : Shape := ⟨2, ![1000, 1]⟩
abbrev S8192x1000 : Shape := ⟨2, ![8192, 1000]⟩
abbrev S8192x1000x1 : Shape := ⟨3, ![8192, 1000, 1]⟩
abbrev S1x1x16 : Shape := ⟨3, ![1, 1, 16]⟩
abbrev S8192x1000x16 : Shape := ⟨3, ![8192, 1000, 16]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1000x2048, .f32⟩
  | .hbm, ⟨2, _⟩ => ⟨S1x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1000x2048, .f32⟩
  | .hbm, ⟨19, _⟩ => ⟨S_, .f32⟩
  | .hbm, ⟨20, _⟩ => ⟨S1000, .f32⟩
  | .hbm, ⟨21, _⟩ => ⟨S1000x1, .f32⟩
  | .hbm, ⟨22, _⟩ => ⟨S_, .f32⟩
  | .hbm, ⟨23, _⟩ => ⟨S1000x1, .f32⟩
  | .hbm, ⟨24, _⟩ => ⟨S1000x1, .f32⟩
  | .hbm, ⟨25, _⟩ => ⟨S1000x1, .f32⟩
  | .hbm, ⟨26, _⟩ => ⟨S1000x2048, .f32⟩
  | .hbm, ⟨27, _⟩ => ⟨S1000x2048, .f32⟩
  | .hbm, ⟨28, _⟩ => ⟨S8192x1000, .f32⟩
  | .hbm, ⟨29, _⟩ => ⟨S8192x1000x1, .f32⟩
  | .hbm, ⟨30, _⟩ => ⟨S16, .f32⟩
  | .hbm, ⟨31, _⟩ => ⟨S1x1x16, .f32⟩
  | .hbm, ⟨32, _⟩ => ⟨S8192x1000x16, .f32⟩
  | .hbm, ⟨33, _⟩ => ⟨S8192x1000x16, .f32⟩
  | .hbm, ⟨34, _⟩ => ⟨S8192x1000x16, .f32⟩
  | .hbm, ⟨35, _⟩ => ⟨S1x1x16, .f32⟩
  | .hbm, ⟨36, _⟩ => ⟨S8192x1000x16, .f32⟩
  | .hbm, ⟨37, _⟩ => ⟨S8192x1000x16, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x1000x16, .f32⟩
  | .hbm, ⟨42, _⟩ => ⟨S8192x1000x16, .f32⟩
  | .hbm, ⟨43, _⟩ => ⟨S_, .f32⟩
  | .hbm, ⟨44, _⟩ => ⟨S8192x1000x16, .f32⟩
  | .hbm, ⟨45, _⟩ => ⟨S8192x1000x16, .f32⟩
  | .hbm, ⟨46, _⟩ => ⟨S8192x1000x16, .f32⟩
  | .hbm, ⟨47, _⟩ => ⟨S1x1x16, .f32⟩
  | .hbm, ⟨48, _⟩ => ⟨S8192x1000x16, .f32⟩
  | .hbm, ⟨49, _⟩ => ⟨S8192x1000x16, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192x1000x16, .f32⟩
  | .hbm, ⟨54, _⟩ => ⟨S8192x1000x16, .f32⟩
  | .hbm, ⟨55, _⟩ => ⟨S_, .f32⟩
  | .hbm, ⟨56, _⟩ => ⟨S8192x1000x16, .f32⟩
  | .hbm, ⟨57, _⟩ => ⟨S8192x1000x16, .f32⟩
  | .hbm, ⟨58, _⟩ => ⟨S8192x1000x1, .f32⟩
  | .hbm, ⟨59, _⟩ => ⟨S8192x1000, .f32⟩
  | .hbm, ⟨60, _⟩ => ⟨S_, .f32⟩
  | .hbm, ⟨61, _⟩ => ⟨S8192x1000, .f32⟩
  | .hbm, ⟨62, _⟩ => ⟨S8192x1000, .f32⟩
  | .hbm, ⟨63, _⟩ => ⟨S_, .f32⟩
  | .hbm, ⟨64, _⟩ => ⟨S8192x1000, .f32⟩
  | .hbm, ⟨65, _⟩ => ⟨S8192x1000, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1, .f32⟩
  | .hbm, ⟨72, _⟩ => ⟨S8192x1000, .f32⟩
  | .hbm, ⟨73, _⟩ => ⟨S8192x1000, .f32⟩
  | .hbm, ⟨74, _⟩ => ⟨S8192x1000, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1000, .f32⟩
  | .hbm, ⟨79, _⟩ => ⟨S8192x1000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_cst : Ref sig .tc := ⟨.hbm, 63, rfl⟩
abbrev main_call2_v0 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  reducesTo_S1000x2048_S1000_d1 : S1000x2048.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x2048_0_1 : S1000x1.BroadcastsInDim S1000x2048 (![0, 1] : Fin 2 → Fin S1000x2048.rank)
  bcast_S8192x1000_S8192x1000x1_0_1 : S8192x1000.BroadcastsInDim S8192x1000x1 (![0, 1] : Fin 2 → Fin S8192x1000x1.rank)
  shapeCasts_S1x16_S16 : S1x16.ShapeCasts S16
  bcast_S16_S1x1x16_2 : S16.BroadcastsInDim S1x1x16 (![2] : Fin 1 → Fin S1x1x16.rank)
  bcast_S8192x1000x1_S8192x1000x16_0_1_2 : S8192x1000x1.BroadcastsInDim S8192x1000x16 (![0, 1, 2] : Fin 3 → Fin S8192x1000x16.rank)
  bcast_S1x1x16_S8192x1000x16_0_1_2 : S1x1x16.BroadcastsInDim S8192x1000x16 (![0, 1, 2] : Fin 3 → Fin S8192x1000x16.rank)
  bcast_S_S8192x1000x16 : S_.BroadcastsInDim S8192x1000x16 (![] : Fin 0 → Fin S8192x1000x16.rank)
  shapeCasts_S8192x1000x1_S8192x1000 : S8192x1000x1.ShapeCasts S8192x1000
  shapeCasts_S1_S_ : S1.ShapeCasts S_
  bcast_S_S8192x1000 : S_.BroadcastsInDim S8192x1000 (![] : Fin 0 → Fin S8192x1000.rank)
  reducesTo_S8192x1000_S8192_d1 : S8192x1000.ReducesTo [1] S8192
  bcast_S_S8192 : S_.BroadcastsInDim S8192 (![] : Fin 0 → Fin S8192.rank)
  bcast_S8192x1_S8192x1000_0_1 : S8192x1.BroadcastsInDim S8192x1000 (![0, 1] : Fin 2 → Fin S8192x1000.rank)
  dot_S8192x2048_S1000x2048_S8192x1000_1_1_0_0_n_n_wf : DotDims.WF S8192x2048 S1000x2048 S8192x1000 [1] [1] [0] [0] [] []
  dot_S8192x1000x16_S16x16_S8192x1000x16_2_0_01_1_n_n_wf : DotDims.WF S8192x1000x16 S16x16 S8192x1000x16 [2] [0] [0, 1] [1] [] []
  dot_S8192x1000x16_S16x1_S8192x1000x1_2_0_01_1_n_n_wf : DotDims.WF S8192x1000x16 S16x1 S8192x1000x1 [2] [0] [0, 1] [1] [] []

variable [Facts₀]

def dot_S8192x2048_S1000x2048_S8192x1000_1_1_0_0_n_n : DotDims S8192x2048 S1000x2048 S8192x1000 where
  lhsContracting := [1]
  rhsContracting := [1]
  lhsNonContracting := [0]
  rhsNonContracting := [0]
  lhsBatch := []
  rhsBatch := []
  wf := dot_S8192x2048_S1000x2048_S8192x1000_1_1_0_0_n_n_wf
def dot_S8192x1000x16_S16x16_S8192x1000x16_2_0_01_1_n_n : DotDims S8192x1000x16 S16x16 S8192x1000x16 where
  lhsContracting := [2]
  rhsContracting := [0]
  lhsNonContracting := [0, 1]
  rhsNonContracting := [1]
  lhsBatch := []
  rhsBatch := []
  wf := dot_S8192x1000x16_S16x16_S8192x1000x16_2_0_01_1_n_n_wf
def dot_S8192x1000x16_S16x1_S8192x1000x1_2_0_01_1_n_n : DotDims S8192x1000x16 S16x1 S8192x1000x1 where
  lhsContracting := [2]
  rhsContracting := [0]
  lhsNonContracting := [0, 1]
  rhsNonContracting := [1]
  lhsBatch := []
  rhsBatch := []
  wf := dot_S8192x1000x16_S16x1_S8192x1000x1_2_0_01_1_n_n_wf

class Facts : Prop extends Facts₀ where

variable [Facts]
-- ==== Proof.TileStages.lean ====
/-
  The tile's arithmetic cut into stages. One grid point holds 32 rows of the input. From them the body computes,
  in this order: the rows scaled to unit length; their inner products with the 1000 (already scaled) class rows; a
  first hidden layer of 16 units per (row, class) pair, clipped to [0, 6]; a second such layer, computed on the
  32 * 1000 pairs laid out as the rows of one tall matrix; one logit per pair, rectified; and a softmax along each
  row of 1000 logits. Each stage is named here as a function of the stage before it and of the parameters it
  reads, and the body's two payloads are shown to be their composition.
-/
import proofs.«169333_j62182536511711_2_alg».proof.Proof.Gen.KernelIdeal.Skeleton
import Idealize.ShloMosaic.PureOps.Ideal

noncomputable section

namespace Cert.Tile

open Cert.KernelIdeal Cert.KernelIdeal.Gen Idealize.ShloMosaic

/-- The 32 rows, each multiplied by the reciprocal square root of its sum of squares (guarded from below). -/
def unitRows (x0 : Vec Ideal S32x2048 .f32) : FVec Ideal S32x2048 .f32 :=
  mulf x0 (broadcastTo S32x2048 (rsqrt (maximumf
    (shapeCast S32x1 (multiReduction .add [1] S32 (mulf x0 x0) 0x00000000#32 reduces_S32x2048_S32 (.inl rfl) rfl) shapeCasts_S32_S32x1)
    (broadcast S32x1 (Scalar.ofBits .f32 0x2B8CBCCC#32)))) broadcasts_S32x1_S32x2048)

/-- The inner product of every scaled row with every class row. -/
def sims (x0 : Vec Ideal S32x2048 .f32) (x1 : Vec Ideal S1000x2048 .bf16) : FVec Ideal S32x1000 .f32 :=
  matmul dot_S32x2048_S1000x2048_S32x1000_1_1_0_0_n_n none (truncf .bf16 (unitRows x0) bitsLt_bf16_f32)
    (shapeCast S1000x2048 x1 shapeCasts_S1000x2048_S1000x2048 : FVec Ideal S1000x2048 .bf16) (constant S32x1000 .f32 0x00000000#32)

/-- The first hidden layer: the similarity times a weight plus a bias, per unit, clipped to [0, 6]. -/
def hidden1 (s : FVec Ideal S32x1000 .f32) (x2 : Vec Ideal S1x16 .f32) (x3 : Vec Ideal S16 .f32) : FVec Ideal S32x1000x16 .f32 :=
  minimumf (broadcast S32x1000x16 (Scalar.ofBits .f32 0x40C00000#32)) (maximumf (broadcast S32x1000x16 (Scalar.ofBits .f32 0x00000000#32))
    (addf (mulf (broadcastTo S32x1000x16 (shapeCast S32x1000x1 s shapeCasts_S32x1000_S32x1000x1) broadcasts_S32x1000x1_S32x1000x16)
        (broadcastTo S32x1000x16 (shapeCast S1x1x16 (shapeCast S16 x2 shapeCasts_S1x16_S16) shapeCasts_S16_S1x1x16) broadcasts_S1x1x16_S32x1000x16))
      (broadcastTo S32x1000x16 (shapeCast S1x1x16 x3 shapeCasts_S16_S1x1x16) broadcasts_S1x1x16_S32x1000x16)))

/-- The second hidden layer on the pairs laid out as 32000 rows: a 16-by-16 product plus a bias, clipped to [0, 6]. -/
def hidden2 (a : FVec Ideal S32x1000x16 .f32) (x4 : Vec Ideal S16x16 .f32) (x5 : Vec Ideal S16 .f32) : FVec Ideal S32000x16 .f32 :=
  minimumf (broadcast S32000x16 (Scalar.ofBits .f32 0x40C00000#32)) (maximumf (broadcast S32000x16 (Scalar.ofBits .f32 0x00000000#32))
    (addf (matmul dot_S32000x16_S16x16_S32000x16_1_0_0_1_n_n none
        (truncf .bf16 (shapeCast S32000x16 a shapeCasts_S32x1000x16_S32000x16) bitsLt_bf16_f32) (truncf .bf16 x4 bitsLt_bf16_f32)
        (constant S32000x16 .f32 0x00000000#32))
      (broadcastTo S32000x16 (shapeCast S1x16 x5 shapeCasts_S16_S1x16) broadcasts_S1x16_S32000x16)))

/-- One logit per pair: a 16-by-1 product plus a bias, laid back as 32 rows of 1000, rectified. -/
def logits (v : FVec Ideal S32000x16 .f32) (x6 : Vec Ideal S16x1 .f32) (x7 : Vec Ideal S1 .f32) : FVec Ideal S32x1000 .f32 :=
  maximumf (shapeCast S32x1000
      (addf (matmul dot_S32000x16_S16x1_S32000x1_1_0_0_1_n_n none (truncf .bf16 v bitsLt_bf16_f32) (truncf .bf16 x6 bitsLt_bf16_f32)
          (constant S32000x1 .f32 0x00000000#32))
        (broadcastTo S32000x1 (shapeCast S1x1 x7 shapeCasts_S1_S1x1) broadcasts_S1x1_S32000x1))
      shapeCasts_S32000x1_S32x1000)
    (broadcast S32x1000 (Scalar.ofBits .f32 0x00000000#32))

/-- The exponentials of a row's entries less the row's largest entry. -/
def shiftedExp (l : FVec Ideal S32x1000 .f32) : FVec Ideal S32x1000 .f32 :=
  exp (subf l (broadcastTo S32x1000
    (shapeCast S32x1 (multiReduction .maximumf [1] S32 l 0xFF800000#32 reduces_S32x1000_S32 (.inl rfl) rfl) shapeCasts_S32_S32x1)
    broadcasts_S32x1_S32x1000))

/-- Each entry divided by its row's sum. -/
def rowNormalize (e : FVec Ideal S32x1000 .f32) : FVec Ideal S32x1000 .f32 :=
  divf e (broadcastTo S32x1000
    (shapeCast S32x1 (multiReduction .add [1] S32 e 0x00000000#32 reduces_S32x1000_S32 (.inl rfl) rfl) shapeCasts_S32_S32x1)
    broadcasts_S32x1_S32x1000)

/-- The body's first payload is the first four stages composed. -/
theorem pay2_eq (x0 : Vec Ideal S32x2048 .f32) (x1 : Vec Ideal S1000x2048 .bf16) (x2 : Vec Ideal S1x16 .f32) (x3 : Vec Ideal S16 .f32)
    (x4 : Vec Ideal S16x16 .f32) (x5 : Vec Ideal S16 .f32) :
    k0_pay2 (F := Ideal) x0 x1 x2 x3 x4 x5 = hidden2 (hidden1 (sims x0 x1) x2 x3) x4 x5 := rfl

/-- The body's stored payload is the last three stages composed. -/
theorem pay1_eq (v : FVec Ideal S32000x16 .f32) (x6 : Vec Ideal S16x1 .f32) (x7 : Vec Ideal S1 .f32) :
    k0_pay1 (F := Ideal) v x6 x7 = rowNormalize (shiftedExp (logits v x6 x7)) := rfl

end Cert.Tile

end
-- ==== Proof.RowSpec.lean ====
/-
  What one row of the result is, as mathematics on the extended reals.

  A row `x` of the input (D entries) is scaled to unit length, `x d * r(x)` with `r(x) = rsqrt (max (Σ_d x_d², ε))`.
  Its similarity with class `c` is the inner product with that class's row of a table `T` (C rows of D entries; the
  programs hand in the class embeddings scaled the same way). A similarity `s` goes through a small network with H
  hidden units, entry by entry: `a_h = clip (s * w1_h + b1_h)`, `a'_k = clip (Σ_h a_h * w2_{h,k} + b2_k)`,
  `logit = max (Σ_h a'_h * w3_h + b3, lo)`, where `clip v = min hi (max lo v)`. The row of C logits is then
  turned into a softmax: each `exp (l_c - M)`, `M` the largest logit, divided by the sum of those exponentials.

  The constants `ε lo hi bot` stay parameters: both programs spell them by the same words, which are never evaluated.
-/
import Idealize.ShloMosaic.PureOps.Ideal
import Mathlib.Data.Finset.Fold

noncomputable section

open scoped BigOperators

namespace Cert.RowSpec

open Idealize.ShloMosaic

/-- The guard under the square root, the two ends of the clip, and the starting value of a maximum: the values of
    the words both programs spell (about 1e-12, zero, six and minus infinity; only the zero is ever evaluated, and only
    where it starts a sum). -/
abbrev eps : EReal := Ideal.ofBits .f32 0x2B8CBCCC#32
abbrev lo : EReal := Ideal.ofBits .f32 0x00000000#32
abbrev hi : EReal := Ideal.ofBits .f32 0x40C00000#32
abbrev bot : EReal := Ideal.ofBits .f32 0xFF800000#32

variable {D C H : ℕ}

/-- The reciprocal length of a vector, its squared length guarded from below by `ε`. -/
def recipLen (ε : EReal) (v : Fin D → EReal) : EReal := Ideal.rsqrt (max (∑ d, v d * v d) ε)

/-- A vector scaled by its reciprocal length. -/
def unit (ε : EReal) (v : Fin D → EReal) (d : Fin D) : EReal := v d * recipLen ε v

/-- The inner product of the scaled row with row `c` of the table. -/
def cosine (ε : EReal) (x : Fin D → EReal) (T : Fin C → Fin D → EReal) (c : Fin C) : EReal := ∑ d, unit ε x d * T c d

/-- The first hidden layer at one similarity. -/
def layer1 (lo hi : EReal) (w1 b1 : Fin H → EReal) (s : EReal) (h : Fin H) : EReal := min hi (max lo (s * w1 h + b1 h))

/-- The second hidden layer from the first. -/
def layer2 (lo hi : EReal) (w2 : Fin H → Fin H → EReal) (b2 : Fin H → EReal) (a : Fin H → EReal) (k : Fin H) : EReal :=
  min hi (max lo ((∑ h, a h * w2 h k) + b2 k))

/-- The rectified output unit. -/
def layer3 (lo : EReal) (w3 : Fin H → EReal) (b3 : EReal) (a : Fin H → EReal) : EReal := max ((∑ h, a h * w3 h) + b3) lo

/-- The network applied to one similarity. -/
def net (lo hi : EReal) (w1 b1 : Fin H → EReal) (w2 : Fin H → Fin H → EReal) (b2 : Fin H → EReal) (w3 : Fin H → EReal) (b3 : EReal)
    (s : EReal) : EReal :=
  layer3 lo w3 b3 (layer2 lo hi w2 b2 (layer1 lo hi w1 b1 s))

/-- The largest entry of a row, from the starting value `bot`. -/
def rowMax (bot : EReal) (l : Fin C → EReal) : EReal := (Finset.univ : Finset (Fin C)).fold max bot l

/-- The exponential of an entry less the row's largest. -/
def expShift (bot : EReal) (l : Fin C → EReal) (c : Fin C) : EReal := Ideal.exp (l c - rowMax bot l)

/-- The softmax of a row. -/
def softmax (bot : EReal) (l : Fin C → EReal) (c : Fin C) : EReal := Ideal.div (expShift bot l c) (∑ j, expShift bot l j)

/-- One row of the result: the softmax over the classes of the network at each similarity. -/
def row (ε lo hi bot : EReal) (T : Fin C → Fin D → EReal) (w1 b1 : Fin H → EReal) (w2 : Fin H → Fin H → EReal) (b2 : Fin H → EReal)
    (w3 : Fin H → EReal) (b3 : EReal) (x : Fin D → EReal) (c : Fin C) : EReal :=
  softmax bot (fun j => net lo hi w1 b1 w2 b2 w3 b3 (cosine ε x T j)) c

/-- Taking the larger of the starting value and a maximum that already started from it changes nothing. -/
theorem max_rowMax (bot : EReal) (l : Fin C → EReal) : max bot (rowMax bot l) = rowMax bot l :=
  max_eq_right ((Finset.le_fold_max bot).mpr (Or.inl le_rfl))

end Cert.RowSpec

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibRowOps.lean ====
/-
  Rows of a matrix and slabs of a rank-3 array, read at an entry.

  * The largest entry of each row of an `[m, n]` array, taken from a starting word: at row `p` it is the fold of
    `max` over the `n` entries of that row; the same for the host's reduction with a maximum body from an initial
    value.
  * An `[a, b]` array cast to `[a, b, 1]` reads, at `(p, k, u)`, the entry `(p, k)`; spread over `[a, b, c]`
    it reads, at `(p, k, j)`, the entry `(p, k, 0)`: a per-row, per-column scalar laid along the last axis.
  * A sum of an `[a, b, c]` array along its middle axis reads, at `(p, j)`, the sum over `k` of the entries
    `(p, k, j)`.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- Putting the dropped column coordinate `k` back into the row index `p` gives the entry `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float maximum along the second axis from the word `acc`, read at row `p`: the fold of `max` over that
    row's entries, from the word's value. -/
theorem rowMax_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) src acc h hφ hacc (ix1 p)
      = (Finset.univ : Finset (Fin n)).fold max (Ideal.ofBits .f32 acc) (fun k => src (ix2 p k)) := by
  refine (Ideal.multiReduction_maximumf_single src acc h hφ hacc (ix1 p)).trans ?_
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduction with a maximum body along the second axis, read at row `p`: the fold of `max` over that
    row's entries, from the initial value. -/
theorem hostRowMax_apply {m n : ℕ} {u : Shape} (x : (⟨2, ![m, n]⟩ : Shape).Idx → Ideal .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (p : Fin m) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- An `[a, b]` array cast to `[a, b, 1]` reads, at `(p, k, u)`, the array at `(p, k)`: both positions are the
    same one in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, b, 1]` array spread over `[a, b, c]` reads, at `(p, k, j)`, the array at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (j : Fin c) :
    broadcastTo ⟨3, ![a, b, c]⟩ v h (ix3 p k j) = v (ix3 p k (0 : Fin 1)) := by
  refine broadcastTo_apply v h (ix3 p k j) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Putting the dropped middle coordinate `k` back into `(p, j)` gives the entry `(p, k, j)`. -/
theorem lift_mid {a b c : ℕ} (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- A float sum along the middle axis from the zero word, read at `(p, j)`: the sum over `k` of the entries
    `(p, k, j)`, on the extended reals. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (j : Fin c) :
    multiReduction .add [1] (⟨2, ![a, c]⟩ : Shape) src acc h hφ hacc (ix2 p j) = ∑ k : Fin b, src (ix3 p k j) := by
  refine (Ideal.multiReduction_add_single src acc h hφ hacc (ix2 p j)).trans ?_
  exact Finset.sum_congr rfl fun k _ => congrArg src (lift_mid h p j k)

end Cert.LibRowOps

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibPairRows.lean ====
/-
  Layouts that treat the (row, column) pairs of an `[a, b]` grid as the `a * b` rows of one tall matrix, and a vector
  laid along the last axis of a rank-3 array. Each is read at an entry written by its coordinates.

  * An `[a, b, c]` array recast as `[n, c]` (`n = a * b`): row `p * b + q` is the pair `(p, q)`.
  * An `[n, 1]` column recast as `[a, b]`: entry `(p, q)` is row `p * b + q`.
  * A `[c]` vector recast as `[1, 1, c]` and spread over `[a, b, c]`: entry `(p, q, k)` is the vector's entry `k`.
  * A `[b]` vector recast as one row `[1, b]` and spread over `[a, b]`: entry `(p, q)` is the vector's entry `q`.
-/
import Idealize.ShloMosaic.Lib.Pipeline.Value
import Idealize.ShloMosaic.Lib.ValueIdx
import Idealize.ShloMosaic.Lib.ValueLayout

noncomputable section

namespace Cert.LibPairRows

open Idealize.ShloMosaic Idealize.ShloMosaic.ValueIdx

variable {α : Type}

/-- An `[a, b, c]` array recast as `[n, c]` reads, at row `r = p * b + q` and column `k`, the entry `(p, q, k)`: both
    are at position `(p * b + q) * c + k` in row-major order. -/
theorem shapeCast_abc_nc_apply {n a b c : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, 1]` column recast as `[a, b]` reads, at `(p, q)`, the column's row `r = p * b + q`. -/
theorem shapeCast_n1_ab_apply {n a b : ℕ} (x : (⟨2, ![n, 1]⟩ : Shape).Idx → α)
    (h : (⟨2, ![n, 1]⟩ : Shape).ShapeCasts ⟨2, ![a, b]⟩) (p : Fin a) (q : Fin b) (r : Fin n)
    (hr : r.val = p.val * b + q.val) : shapeCast ⟨2, ![a, b]⟩ x h (ix2 p q) = x (ix2 r (0 : Fin 1)) :=
  shapeCast_apply x h _ _ (by
    rw [Shape.rowMajor_val_two, Shape.rowMajor_val_two]
    show r.val * 1 + 0 = p.val * b + q.val
    rw [hr, Nat.mul_one, Nat.add_zero])

/-- A `[c]` vector recast as `[1, 1, c]` reads, at `(u, v, k)`, the vector at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp [hu, hv])

/-- A `[1, 1, c]` array spread over `[a, b, c]` reads, at `(p, q, k)`, its entry `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector laid along the last axis of `[a, b, c]` reads, at `(p, q, k)`, the vector's entry `k`. -/
theorem lastAxis_apply {a b c : ℕ} (x : (⟨1, ![c]⟩ : Shape).Idx → α) (hcast : (⟨1, ![c]⟩ : Shape).ShapeCasts ⟨3, ![1, 1, c]⟩)
    (hbc : (⟨3, ![1, 1, c]⟩ : Shape).Broadcasts ⟨3, ![a, b, c]⟩) (p : Fin a) (q : Fin b) (k : Fin c) :
    broadcastTo ⟨3, ![a, b, c]⟩ (shapeCast ⟨3, ![1, 1, c]⟩ x hcast) hbc (ix3 p q k) = x (ix1 k) :=
  (broadcastTo_11c_abc_apply _ hbc p q k).trans (shapeCast_c_11c_apply x hcast 0 0 k)

/-- A `[b]` vector recast as the one row `[1, b]` and spread over `[a, b]` reads, at `(p, q)`, the vector's entry `q`. -/
theorem rowOfVec_apply {a b : ℕ} (x : (⟨1, ![b]⟩ : Shape).Idx → α) (hcast : (⟨1, ![b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ x hcast) hbc (ix2 p q) = x (ix1 q) :=
  (broadcastTo_1b_ab_apply _ hbc p q).trans (shapeCast_a_1a_apply x hcast 0 q)

end Cert.LibPairRows

end
-- ==== Proof.TileValue.lean ====
/-
  The tile's stages read at an entry, and their composition: the value the body stores at row `p`, class `q` of its
  block is the row specification (`RowSpec.row`) of row `p` of the input block, at class `q`, with the block of class rows
  as the table.

  The only steps that are not entry-by-entry are: a row's sum of squares, kept as a column and spread back over the
  row; the three matrix products (the first contracts the last axis of both operands, the other two are plain); the
  similarities laid along a new last axis and the hidden layers' (row, class) pairs read as the rows `p * 1000 + q` of
  a tall matrix; and a row's maximum and sum in the softmax, again kept as columns.
-/
import proofs.«169333_j62182536511711_2_alg».proof.Proof.TileStages
import proofs.«169333_j62182536511711_2_alg».proof.Proof.RowSpec
import proofs.«169333_j62182536511711_2_alg».proof.Proof.LibKeepdims
import proofs.«169333_j62182536511711_2_alg».proof.Proof.LibRowOps
import proofs.«169333_j62182536511711_2_alg».proof.Proof.LibDotsNT
import proofs.«169333_j62182536511711_2_alg».proof.Proof.LibMatmulPlain
import proofs.«169333_j62182536511711_2_alg».proof.Proof.LibPairRows

noncomputable section

open scoped BigOperators

namespace Cert.Tile

open Cert.KernelIdeal Cert.KernelIdeal.Gen Idealize.ShloMosaic Idealize.ShloMosaic.ValueIdx

open Cert.RowSpec (eps lo hi bot)

/-- Entry `(p, d)` of the scaled rows is entry `d` of row `p` scaled to unit length. -/
theorem unitRows_apply (x0 : Vec Ideal S32x2048 .f32) (p : Fin 32) (d : Fin 2048) :
    unitRows x0 (ix2 p d) = RowSpec.unit eps (fun k => x0 (ix2 p k)) d := by
  unfold unitRows RowSpec.unit RowSpec.recipLen
  rw [mulf_apply, LibKeepdims.broadcastTo_a1_ab_apply]
  refine congrArg (x0 (ix2 p d) * ·) ?_
  show Ideal.rsqrt (max (shapeCast S32x1 _ shapeCasts_S32_S32x1 (ix2 p (0 : Fin 1))) eps) = _
  rw [LibKeepdims.shapeCast_a_a1_apply, LibKeepdims.rowSum_apply]
  rfl

/-- Entry `(p, q)` of the similarities is the inner product of scaled row `p` with class row `q`. -/
theorem sims_apply (x0 : Vec Ideal S32x2048 .f32) (x1 : Vec Ideal S1000x2048 .bf16) (p : Fin 32) (q : Fin 1000) :
    sims x0 x1 (ix2 p q) = RowSpec.cosine eps (fun k => x0 (ix2 p k)) (fun c k => x1 (ix2 c k)) q := by
  unfold sims RowSpec.cosine
  refine (LibDotsNT.nt_matmul_zero_apply dot_S32x2048_S1000x2048_S32x1000_1_1_0_0_n_n rfl rfl rfl rfl rfl rfl none _ _ p q).trans ?_
  refine Finset.sum_congr rfl fun k _ => ?_
  rw [truncf_apply, unitRows_apply, shapeCast_self]

/-- Entry `(p, q, h)` of the first hidden layer is unit `h` of the layer at the similarity `(p, q)`. -/
theorem hidden1_apply (s : FVec Ideal S32x1000 .f32) (x2 : Vec Ideal S1x16 .f32) (x3 : Vec Ideal S16 .f32)
    (p : Fin 32) (q : Fin 1000) (h : Fin 16) :
    hidden1 s x2 x3 (ix3 p q h)
      = RowSpec.layer1 lo hi (fun j => x2 (ix2 (0 : Fin 1) j)) (fun j => x3 (ix1 j)) (s (ix2 p q)) h := by
  unfold hidden1 RowSpec.layer1
  rw [minimumf_apply, maximumf_apply, addf_apply, mulf_apply, broadcast_apply, broadcast_apply,
    LibRowOps.broadcastTo_ab1_abc_apply, LibRowOps.shapeCast_ab_ab1_apply,
    LibPairRows.lastAxis_apply, LibPairRows.lastAxis_apply, shapeCast_1a_a_apply]
  rfl

/-- Row `p * 1000 + q`, column `k` of the second hidden layer is unit `k` of the layer at the pair `(p, q)`'s first-layer
    units. -/
theorem hidden2_apply (a : FVec Ideal S32x1000x16 .f32) (x4 : Vec Ideal S16x16 .f32) (x5 : Vec Ideal S16 .f32)
    (p : Fin 32) (q : Fin 1000) (r : Fin 32000) (hr : r.val = p.val * 1000 + q.val) (k : Fin 16) :
    hidden2 a x4 x5 (ix2 r k)
      = RowSpec.layer2 lo hi (fun h j => x4 (ix2 h j)) (fun j => x5 (ix1 j)) (fun h => a (ix3 p q h)) k := by
  unfold hidden2 RowSpec.layer2 Idealize.ShloMosaic.matmul
  rw [minimumf_apply, maximumf_apply, addf_apply, broadcast_apply, broadcast_apply, LibPairRows.rowOfVec_apply,
    LibMatmulPlain.matmul_zero_apply dot_S32000x16_S16x16_S32000x16_1_0_0_1_n_n rfl rfl rfl rfl rfl rfl]
  simp only [truncf_apply, fun j => LibPairRows.shapeCast_abc_nc_apply a shapeCasts_S32x1000x16_S32000x16 p q j r hr]
  rfl

/-- Entry `(p, q)` of the logits is the output unit at row `p * 1000 + q` of the second hidden layer. -/
theorem logits_apply (v : FVec Ideal S32000x16 .f32) (x6 : Vec Ideal S16x1 .f32) (x7 : Vec Ideal S1 .f32)
    (p : Fin 32) (q : Fin 1000) (r : Fin 32000) (hr : r.val = p.val * 1000 + q.val) :
    logits v x6 x7 (ix2 p q)
      = RowSpec.layer3 lo (fun h => x6 (ix2 h (0 : Fin 1))) (x7 (ix1 (0 : Fin 1))) (fun h => v (ix2 r h)) := by
  unfold logits RowSpec.layer3 Idealize.ShloMosaic.matmul
  rw [maximumf_apply, broadcast_apply, LibPairRows.shapeCast_n1_ab_apply _ shapeCasts_S32000x1_S32x1000 p q r hr, addf_apply,
    LibPairRows.rowOfVec_apply,
    LibMatmulPlain.matmul_zero_apply dot_S32000x16_S16x1_S32000x1_1_0_0_1_n_n rfl rfl rfl rfl rfl rfl]
  simp only [truncf_apply]
  rfl

/-- Entry `(p, q)` of the shifted exponentials: the exponential of the entry less the largest entry of row `p`. -/
theorem shiftedExp_apply (l : FVec Ideal S32x1000 .f32) (p : Fin 32) (q : Fin 1000) :
    shiftedExp l (ix2 p q) = RowSpec.expShift bot (fun j => l (ix2 p j)) q := by
  unfold shiftedExp RowSpec.expShift RowSpec.rowMax
  show Ideal.exp (l (ix2 p q) - broadcastTo S32x1000 _ broadcasts_S32x1_S32x1000 (ix2 p q)) = _
  rw [LibKeepdims.broadcastTo_a1_ab_apply, LibKeepdims.shapeCast_a_a1_apply]
  exact congrArg (fun m => Ideal.exp (l (ix2 p q) - m)) (LibRowOps.rowMax_apply l _ reduces_S32x1000_S32 _ _ p)

/-- Entry `(p, q)` of the normalized rows: the entry divided by the sum of row `p`. -/
theorem rowNormalize_apply (e : FVec Ideal S32x1000 .f32) (p : Fin 32) (q : Fin 1000) :
    rowNormalize e (ix2 p q) = Ideal.div (e (ix2 p q)) (∑ j, e (ix2 p j)) := by
  unfold rowNormalize
  rw [divf_apply, LibKeepdims.rowSum_column_apply]

/-- THE TILE'S VALUE: what the body stores at `(p, q)` is the row specification of row `p` of the input block. -/
theorem tile_apply (x0 : Vec Ideal S32x2048 .f32) (x1 : Vec Ideal S1000x2048 .bf16) (x2 : Vec Ideal S1x16 .f32) (x3 : Vec Ideal S16 .f32)
    (x4 : Vec Ideal S16x16 .f32) (x5 : Vec Ideal S16 .f32) (x6 : Vec Ideal S16x1 .f32) (x7 : Vec Ideal S1 .f32)
    (p : Fin 32) (q : Fin 1000) :
    k0_pay1 (F := Ideal) (k0_pay2 (F := Ideal) x0 x1 x2 x3 x4 x5) x6 x7 (ix2 p q)
      = RowSpec.row eps lo hi bot (fun c k => x1 (ix2 c k)) (fun j => x2 (ix2 (0 : Fin 1) j)) (fun j => x3 (ix1 j))
          (fun h j => x4 (ix2 h j)) (fun j => x5 (ix1 j)) (fun h => x6 (ix2 h (0 : Fin 1))) (x7 (ix1 (0 : Fin 1)))
          (fun k => x0 (ix2 p k)) q := by
  have hl : ∀ j : Fin 1000, logits (hidden2 (hidden1 (sims x0 x1) x2 x3) x4 x5) x6 x7 (ix2 p j)
      = RowSpec.net lo hi (fun j => x2 (ix2 (0 : Fin 1) j)) (fun j => x3 (ix1 j)) (fun h j => x4 (ix2 h j)) (fun j => x5 (ix1 j))
          (fun h => x6 (ix2 h (0 : Fin 1))) (x7 (ix1 (0 : Fin 1)))
          (RowSpec.cosine eps (fun k => x0 (ix2 p k)) (fun c k => x1 (ix2 c k)) j) := fun j => by
    have hlt : p.val * 1000 + j.val < 32000 := by have := p.isLt; have := j.isLt; omega
    rw [logits_apply _ x6 x7 p j ⟨p.val * 1000 + j.val, hlt⟩ rfl]
    unfold RowSpec.net
    refine congrArg (RowSpec.layer3 lo _ _) (funext fun h => ?_)
    rw [hidden2_apply _ x4 x5 p j ⟨p.val * 1000 + j.val, hlt⟩ rfl h]
    refine congrArg (fun a => RowSpec.layer2 lo hi _ _ a h) (funext fun h' => ?_)
    rw [hidden1_apply, sims_apply]
  rw [pay2_eq, pay1_eq, rowNormalize_apply]
  unfold RowSpec.row RowSpec.softmax
  simp only [shiftedExp_apply, hl]

end Cert.Tile

end
-- ==== Proof.RefValue.lean ====
/-
  The reference read at an entry. Its program works on the whole arrays: all 8192 rows are scaled to unit length,
  the 1000 class rows likewise, one inner product gives all the similarities, the small network is applied along a
  trailing axis of 16 units, and the softmax is taken along the class axis. Read at row `b` and class `c` every step
  looks at row `b` of the input only, so the entry is the row specification (`RowSpec.row`) of that row, with the scaled
  class rows as the table.

  The reading goes stage by stage over the generated one-operation lemmas; what is added by hand is the largest
  entry of a row (a fold of `max` from the starting word, after which taking the larger with that word again changes
  nothing), the bias read out of a one-entry array, and that a sum started from the zero word is the plain sum.
-/
import proofs.«169333_j62182536511711_2_alg».proof.Proof.Gen.ReferenceIdeal.Read
import proofs.«169333_j62182536511711_2_alg».proof.Proof.RowSpec
import proofs.«169333_j62182536511711_2_alg».proof.Proof.LibRowOps

noncomputable section

open scoped BigOperators

namespace Cert.Ref

open Cert.ReferenceIdeal Cert.ReferenceIdeal.Gen Cert.ReferenceIdeal.Read Idealize.ShloMosaic Idealize.ShloMosaic.ValueIdx
open Cert.RowSpec (eps lo hi bot)

/-- An f32 array of the reference, on the extended reals. -/
abbrev Arr (s : Shape) := (⟨s, .f32⟩ : BufTy).Contents (Elt Ideal)

/-- Entry `(b, d)` of the scaled input is entry `d` of row `b` scaled to unit length. -/
theorem unit_x (x : Arr S8192x2048) (b : Fin 8192) (d : Fin 2048) :
    val_main_v7 (F := Ideal) x (ix2 b d) = RowSpec.unit eps (fun k => x (ix2 b k)) d := by
  have hidx : ∀ k : Fin 2048, idx_main_v1 (idx_main_v2 (idx_main_v6 (ix2 b d))) k = ix2 b k := fun k =>
    funext fun a => Fin.ext (by match a with | ⟨0, _⟩ => rfl | ⟨1, _⟩ => rfl)
  rw [val_main_v7_apply, val_main_v6_apply, val_main_v5_apply, val_main_v4_apply, val_main_v2_apply, val_main_v3_apply,
    val_main_cst_0_apply, val_main_v1_apply, val_main_cst_apply]
  simp only [val_main_v0_apply, hidx, Ideal.mulf_def, Ideal.maximumf_def, Ideal.hostUnary_rsqrt_def, Ideal.ofBits_def,
    Ideal.ofBits_zero_f32, zero_add]
  rfl

/-- Entry `(c, d)` of the scaled class rows is entry `d` of class row `c` scaled to unit length. -/
theorem unit_W (W : Arr S1000x2048) (c : Fin 1000) (d : Fin 2048) :
    val_main_v15 (F := Ideal) W (ix2 c d) = RowSpec.unit eps (fun k => W (ix2 c k)) d := by
  have hidx : ∀ k : Fin 2048, idx_main_v9 (idx_main_v10 (idx_main_v14 (ix2 c d))) k = ix2 c k := fun k =>
    funext fun a => Fin.ext (by match a with | ⟨0, _⟩ => rfl | ⟨1, _⟩ => rfl)
  rw [val_main_v15_apply, val_main_v14_apply, val_main_v13_apply, val_main_v12_apply, val_main_v10_apply, val_main_v11_apply,
    val_main_cst_2_apply, val_main_v9_apply, val_main_cst_1_apply]
  simp only [val_main_v8_apply, hidx, Ideal.mulf_def, Ideal.maximumf_def, Ideal.hostUnary_rsqrt_def, Ideal.ofBits_def,
    Ideal.ofBits_zero_f32, zero_add]
  rfl

/-- Entry `(b, c)` of the similarities: the inner product of scaled row `b` with scaled class row `c`. -/
theorem cosine_apply (x : Arr S8192x2048) (W : Arr S1000x2048) (b : Fin 8192) (c : Fin 1000) :
    val_main_v16 (F := Ideal) x W (ix2 b c)
      = RowSpec.cosine eps (fun k => x (ix2 b k)) (fun c' => RowSpec.unit eps (fun k => W (ix2 c' k))) c := by
  rw [val_main_v16_apply]
  unfold RowSpec.cosine
  refine Finset.sum_congr rfl fun k _ => ?_
  have hl : lidx_main_v16 (ix2 b c) k = ix2 b k :=
    funext fun a => Fin.ext (by match a with | ⟨0, _⟩ => rfl | ⟨1, _⟩ => rfl)
  have hr : ridx_main_v16 (ix2 b c) k = ix2 c k :=
    funext fun a => Fin.ext (by match a with | ⟨0, _⟩ => rfl | ⟨1, _⟩ => rfl)
  rw [hl, hr, unit_x, unit_W]

/-- Entry `(b, c, h)` of the first hidden layer is unit `h` of the layer at the similarity `(b, c)`. -/
theorem layer1_apply (x : Arr S8192x2048) (W : Arr S1000x2048) (w1 : Arr S1x16) (b1 : Arr S16)
    (b : Fin 8192) (c : Fin 1000) (h : Fin 16) :
    val_main_v26 (F := Ideal) x W w1 b1 (ix3 b c h)
      = RowSpec.layer1 lo hi (fun j => w1 (ix2 (0 : Fin 1) j)) (fun j => b1 (ix1 j)) (val_main_v16 (F := Ideal) x W (ix2 b c)) h := by
  have h1 : idx_main_v17 (idx_main_v20 (ix3 b c h)) = ix2 b c :=
    funext fun a => Fin.ext (by match a with | ⟨0, _⟩ => rfl | ⟨1, _⟩ => rfl)
  have h2 : idx_main_v18 (idx_main_v19 (idx_main_v21 (ix3 b c h))) = ix2 (0 : Fin 1) h :=
    funext fun a => Fin.ext (by
      match a with
      | ⟨0, _⟩ => rfl
      | ⟨1, _⟩ => exact Nat.mod_eq_of_lt h.isLt)
  have h3 : idx_main_v23 (idx_main_v24 (ix3 b c h)) = ix1 h :=
    funext fun a => Fin.ext (by match a with | ⟨0, _⟩ => rfl)
  rw [val_main_v26_apply, val_main_call0_v4_apply, val_main_call0_v3_apply, val_main_cst_4_apply, val_main_call0_v2_apply,
    val_main_call0_v1_apply, val_main_call0_v0_apply, val_main_cst_3_apply, val_main_v25_apply, val_main_v22_apply,
    val_main_v20_apply, val_main_v17_apply, val_main_v21_apply, val_main_v19_apply, val_main_v18_apply, val_main_v24_apply,
    val_main_v23_apply, h1, h2, h3]
  rfl

/-- Entry `(b, c, k)` of the second hidden layer is unit `k` of the layer at the pair's first-layer units. -/
theorem layer2_apply (x : Arr S8192x2048) (W : Arr S1000x2048) (w1 : Arr S1x16) (b1 : Arr S16) (w2 : Arr S16x16) (b2 : Arr S16)
    (b : Fin 8192) (c : Fin 1000) (k : Fin 16) :
    val_main_v31 (F := Ideal) x W w1 b1 w2 b2 (ix3 b c k)
      = RowSpec.layer2 lo hi (fun h j => w2 (ix2 h j)) (fun j => b2 (ix1 j))
          (fun h => val_main_v26 (F := Ideal) x W w1 b1 (ix3 b c h)) k := by
  have hl : ∀ h : Fin 16, lidx_main_v27 (ix3 b c k) h = ix3 b c h := fun h =>
    funext fun a => Fin.ext (by match a with | ⟨0, _⟩ => rfl | ⟨1, _⟩ => rfl | ⟨2, _⟩ => rfl)
  have hr : ∀ h : Fin 16, ridx_main_v27 (ix3 b c k) h = ix2 h k := fun h =>
    funext fun a => Fin.ext (by match a with | ⟨0, _⟩ => rfl | ⟨1, _⟩ => rfl)
  have h3 : idx_main_v28 (idx_main_v29 (ix3 b c k)) = ix1 k :=
    funext fun a => Fin.ext (by match a with | ⟨0, _⟩ => rfl)
  rw [val_main_v31_apply, val_main_call1_v4_apply, val_main_call1_v3_apply, val_main_cst_6_apply, val_main_call1_v2_apply,
    val_main_call1_v1_apply, val_main_call1_v0_apply, val_main_cst_5_apply, val_main_v30_apply, val_main_v27_apply,
    val_main_v29_apply, val_main_v28_apply, h3]
  simp only [hl, hr]
  rfl

/-- The bias of the output unit, read out of its one-entry array. -/
theorem bias3_apply (b3 : Arr S1) (j : S_.Idx) : val_main_v34 (F := Ideal) b3 j = b3 (ix1 (0 : Fin 1)) := by
  unfold val_main_v34
  refine shapeCast_apply b3 shapeCasts_S1_S_ j (ix1 (0 : Fin 1)) ?_
  show (S1.rowMajor (ix1 (0 : Fin 1))).val = (S_.rowMajor j).val
  have h1 : (S1.rowMajor (ix1 (0 : Fin 1))).val < 1 := (S1.rowMajor (ix1 (0 : Fin 1))).isLt
  have h2 : (S_.rowMajor j).val < 1 := (S_.rowMajor j).isLt
  omega

/-- Entry `(b, c)` of the logits is the output unit at the pair's second-layer units. -/
theorem logit_apply (x : Arr S8192x2048) (W : Arr S1000x2048) (w1 : Arr S1x16) (b1 : Arr S16) (w2 : Arr S16x16) (b2 : Arr S16)
    (w3 : Arr S16x1) (b3 : Arr S1) (b : Fin 8192) (c : Fin 1000) :
    val_main_v37 (F := Ideal) x W w1 b1 w2 b2 w3 b3 (ix2 b c)
      = RowSpec.layer3 lo (fun h => w3 (ix2 h (0 : Fin 1))) (b3 (ix1 (0 : Fin 1)))
          (fun h => val_main_v31 (F := Ideal) x W w1 b1 w2 b2 (ix3 b c h)) := by
  have h0 : idx_main_v33 (ix2 b c) = ix3 b c (0 : Fin 1) :=
    funext fun a => Fin.ext (by
      have hb := b.isLt
      have hc := c.isLt
      match a with
      | ⟨0, _⟩ => show (b.val * 1000 + c.val) / 1000 = b.val; omega
      | ⟨1, _⟩ => show (b.val * 1000 + c.val) / 1 % 1000 = c.val; omega
      | ⟨2, _⟩ => rfl)
  have hl : ∀ h : Fin 16, lidx_main_v32 (ix3 b c (0 : Fin 1)) h = ix3 b c h := fun h =>
    funext fun a => Fin.ext (by match a with | ⟨0, _⟩ => rfl | ⟨1, _⟩ => rfl | ⟨2, _⟩ => rfl)
  have hr : ∀ h : Fin 16, ridx_main_v32 (ix3 b c (0 : Fin 1)) h = ix2 h (0 : Fin 1) := fun h =>
    funext fun a => Fin.ext (by match a with | ⟨0, _⟩ => rfl | ⟨1, _⟩ => rfl)
  rw [val_main_v37_apply, val_main_call2_v0_apply, val_main_call2_cst_apply, val_main_v36_apply, val_main_v33_apply, h0,
    val_main_v32_apply, val_main_v35_apply, bias3_apply]
  simp only [hl, hr]
  rfl

/-- Entry `(b, c)` of the shifted exponentials: the exponential of the logit less the largest logit of row `b`. -/
theorem expShift_apply (x : Arr S8192x2048) (W : Arr S1000x2048) (w1 : Arr S1x16) (b1 : Arr S16) (w2 : Arr S16x16) (b2 : Arr S16)
    (w3 : Arr S16x1) (b3 : Arr S1) (b : Fin 8192) (c : Fin 1000) :
    val_main_v44 (F := Ideal) x W w1 b1 w2 b2 w3 b3 (ix2 b c)
      = RowSpec.expShift bot (fun j => val_main_v37 (F := Ideal) x W w1 b1 w2 b2 w3 b3 (ix2 b j)) c := by
  have h1 : idx_main_v41 (idx_main_v42 (ix2 b c)) = ix1 b :=
    funext fun a => Fin.ext (by match a with | ⟨0, _⟩ => rfl)
  rw [val_main_v44_apply, val_main_v43_apply, val_main_v42_apply, val_main_v41_apply, val_main_v40_apply, val_main_v39_apply,
    val_main_cst_8_apply, h1]
  unfold val_main_v38
  generalize val_main_v37 (F := Ideal) x W w1 b1 w2 b2 w3 b3 = L
  have hm := LibRowOps.hostRowMax_apply L (val_main_cst_7 (F := Ideal)) reducesTo_S8192x1000_S8192_d1 (by decide) h_S_ b
  rw [hm, val_main_cst_7_apply]
  show Ideal.exp (L (ix2 b c) - max bot (RowSpec.rowMax bot (fun j => L (ix2 b j)))) = _
  rw [RowSpec.max_rowMax]
  rfl

/-- Entry `(b, c)` of the result is the softmax of row `b` of the logits at class `c`. -/
theorem softmax_apply (x : Arr S8192x2048) (W : Arr S1000x2048) (w1 : Arr S1x16) (b1 : Arr S16) (w2 : Arr S16x16) (b2 : Arr S16)
    (w3 : Arr S16x1) (b3 : Arr S1) (b : Fin 8192) (c : Fin 1000) :
    val_main_v48 (F := Ideal) x W w1 b1 w2 b2 w3 b3 (ix2 b c)
      = RowSpec.softmax bot (fun j => val_main_v37 (F := Ideal) x W w1 b1 w2 b2 w3 b3 (ix2 b j)) c := by
  have h1 : idx_main_v46 (idx_main_v47 (ix2 b c)) = ix1 b :=
    funext fun a => Fin.ext (by match a with | ⟨0, _⟩ => rfl)
  have h2 : ∀ k : Fin 1000, idx_main_v45 (ix1 b) k = ix2 b k := fun k =>
    funext fun a => Fin.ext (by match a with | ⟨0, _⟩ => rfl | ⟨1, _⟩ => rfl)
  rw [val_main_v48_apply, val_main_v47_apply, val_main_v46_apply, h1, val_main_v45_apply, val_main_cst_9_apply]
  simp only [h2, expShift_apply, Ideal.hostDivf_def, Ideal.ofBits_def, Ideal.ofBits_zero_f32, zero_add]
  rfl

/-- THE REFERENCE'S VALUE: entry `(b, c)` of the result is the row specification of row `b` of the input at class `c`,
    over the class rows scaled to unit length. -/
theorem result_apply (x : Arr S8192x2048) (W : Arr S1000x2048) (w1 : Arr S1x16) (b1 : Arr S16) (w2 : Arr S16x16) (b2 : Arr S16)
    (w3 : Arr S16x1) (b3 : Arr S1) (b : Fin 8192) (c : Fin 1000) :
    val_main_v48 (F := Ideal) x W w1 b1 w2 b2 w3 b3 (ix2 b c)
      = RowSpec.row eps lo hi bot (fun c' => RowSpec.unit eps (fun k => W (ix2 c' k))) (fun j => w1 (ix2 (0 : Fin 1) j))
          (fun j => b1 (ix1 j)) (fun h j => w2 (ix2 h j)) (fun j => b2 (ix1 j)) (fun h => w3 (ix2 h (0 : Fin 1)))
          (b3 (ix1 (0 : Fin 1))) (fun k => x (ix2 b k)) c := by
  rw [softmax_apply]
  unfold RowSpec.row
  refine congrArg (fun l => RowSpec.softmax bot l c) (funext fun j => ?_)
  rw [logit_apply]
  unfold RowSpec.net
  refine congrArg (RowSpec.layer3 lo _ _) (funext fun h => ?_)
  rw [layer2_apply]
  refine congrArg (fun a => RowSpec.layer2 lo hi _ _ a h) (funext fun h' => ?_)
  rw [layer1_apply, cosine_apply]

end Cert.Ref

end
-- ==== Proof.WholeArray.lean ====
/-
  From blocks to the whole array. The grid has 256 points; point `t` is handed rows `32 t .. 32 t + 31` of the input
  and all of every other operand, and writes back rows `32 t .. 32 t + 31` of the result. Since the value stored at
  row `p` of a block depends on row `p` of the input block only (`Tile.tile_apply`), what point `t` writes back is the
  restriction to its rows of ONE function `rows` of the arrays as the region finds them: entry `(b, c)` is the row
  specification of input row `b` at class `c`. The 256 blocks tile the 8192 rows, so the array ends holding `rows`.

  The table of class rows the region finds was written before it by host operations: the class embeddings scaled
  to unit length, operation for operation what the reference does to them.
-/
import proofs.«169333_j62182536511711_2_alg».proof.Proof.Gen.KernelIdeal.Value
import proofs.«169333_j62182536511711_2_alg».proof.Proof.Gen.ReferenceIdeal.Read
import proofs.«169333_j62182536511711_2_alg».proof.Proof.TileValue
import proofs.«169333_j62182536511711_2_alg».proof.Proof.RefValue
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)
open Cert.RowSpec (eps lo hi bot)

variable (m : (ℓ : Loc nD τ sig) → Buf (Elt Ideal) ℓ) (ρ : Dev nD → PrngReg)

/-- The whole result as one function of the arrays the region finds: entry `(b, c)` is the row specification of
    row `b` of the input at class `c`, with `T` the table of class rows. -/
def rows (X : Vec Ideal S8192x2048 .f32) (T : Vec Ideal S1000x2048 .bf16) (a2 : Vec Ideal S1x16 .f32) (a3 : Vec Ideal S16 .f32)
    (a4 : Vec Ideal S16x16 .f32) (a5 : Vec Ideal S16 .f32) (a6 : Vec Ideal S16x1 .f32) (a7 : Vec Ideal S1 .f32) :
    S8192x1000.Idx → EReal := fun i =>
  RowSpec.row eps lo hi bot (fun c k => T (ix2 c k)) (fun j => a2 (ix2 (0 : Fin 1) j)) (fun j => a3 (ix1 j))
    (fun h j => a4 (ix2 h j)) (fun j => a5 (ix1 j)) (fun h => a6 (ix2 h (0 : Fin 1))) (a7 (ix1 (0 : Fin 1)))
    (fun k => X (ix2 (i 0) k)) (i 1)

theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the 256 points: the input's block row is the output's, and every other
    block index is zero. -/
theorem index_facts : ∀ t : Fin cfg0.N, win0_0.index t (0 : Fin 2) = win0_8.index t (0 : Fin 2)
    ∧ win0_0.index t (1 : Fin 2) = 0 ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-! ## Each window's block, read where the output's rows are -/

/-- Row `p` of the input block at point `t` is the input's row under row `p` of the output block. -/
theorem read0 (c : Dev nD) (t : Fin cfg0.N) (p : Fin 32) (q : Fin 1000) (k : Fin 2048) :
    iblk m c 0 t (ix2 p k) = V m c main_arg0 (ix2 (((cfg0.win 8).blk t).view.emb (ix2 p q) 0) k) := by
  show V m c main_arg0 (((cfg0.win 0).blk t).view.emb (ix2 p k)) = _
  refine congrArg (V m c main_arg0) (funext fun a => Fin.ext ?_)
  obtain ⟨e0, e1, -⟩ := index_facts t
  match a with
  | ⟨0, _⟩ => show win0_0.index t (0 : Fin 2) * 32 + 1 * p.val = win0_8.index t (0 : Fin 2) * 32 + 1 * p.val; omega
  | ⟨1, _⟩ => show win0_0.index t (1 : Fin 2) * 2048 + 1 * k.val = k.val; omega

/-- The output block's column `q` is the array's column `q`. -/
theorem col8 (t : Fin cfg0.N) (p : Fin 32) (q : Fin 1000) : ((cfg0.win 8).blk t).view.emb (ix2 p q) 1 = q := by
  obtain ⟨-, -, e, -⟩ := index_facts t
  exact Fin.ext (show win0_8.index t (1 : Fin 2) * 1000 + 1 * q.val = q.val by omega)

theorem read1 (c : Dev nD) (t : Fin cfg0.N) (a : Fin 1000) (k : Fin 2048) : iblk m c 1 t (ix2 a k) = V m c main_v8 (ix2 a k) := by
  show V m c main_v8 (((cfg0.win 1).blk t).view.emb (ix2 a k)) = _
  refine congrArg (V m c main_v8) (funext fun ax => Fin.ext ?_)
  obtain ⟨-, -, -, e0, e1, -⟩ := index_facts t
  match ax with
  | ⟨0, _⟩ => show win0_1.index t (0 : Fin 2) * 1000 + 1 * a.val = a.val; omega
  | ⟨1, _⟩ => show win0_1.index t (1 : Fin 2) * 2048 + 1 * k.val = k.val; omega

theorem read2 (c : Dev nD) (t : Fin cfg0.N) (a : Fin 1) (k : Fin 16) : iblk m c 2 t (ix2 a k) = V m c main_arg2 (ix2 a k) := by
  show V m c main_arg2 (((cfg0.win 2).blk t).view.emb (ix2 a k)) = _
  refine congrArg (V m c main_arg2) (funext fun ax => Fin.ext ?_)
  obtain ⟨-, -, -, -, -, e0, e1, -⟩ := index_facts t
  match ax with
  | ⟨0, _⟩ => show win0_2.index t (0 : Fin 2) * 1 + 1 * a.val = a.val; omega
  | ⟨1, _⟩ => show win0_2.index t (1 : Fin 2) * 16 + 1 * k.val = k.val; omega

theorem read3 (c : Dev nD) (t : Fin cfg0.N) (k : Fin 16) : iblk m c 3 t (ix1 k) = V m c main_arg3 (ix1 k) := by
  show V m c main_arg3 (((cfg0.win 3).blk t).view.emb (ix1 k)) = _
  refine congrArg (V m c main_arg3) (funext fun ax => Fin.ext ?_)
  obtain ⟨-, -, -, -, -, -, -, e0, -⟩ := index_facts t
  match ax with
  | ⟨0, _⟩ => show win0_3.index t (0 : Fin 1) * 16 + 1 * k.val = k.val; omega

theorem read4 (c : Dev nD) (t : Fin cfg0.N) (a : Fin 16) (k : Fin 16) : iblk m c 4 t (ix2 a k) = V m c main_arg4 (ix2 a k) := by
  show V m c main_arg4 (((cfg0.win 4).blk t).view.emb (ix2 a k)) = _
  refine congrArg (V m c main_arg4) (funext fun ax => Fin.ext ?_)
  obtain ⟨-, -, -, -, -, -, -, -, e0, e1, -⟩ := index_facts t
  match ax with
  | ⟨0, _⟩ => show win0_4.index t (0 : Fin 2) * 16 + 1 * a.val = a.val; omega
  | ⟨1, _⟩ => show win0_4.index t (1 : Fin 2) * 16 + 1 * k.val = k.val; omega

theorem read5 (c : Dev nD) (t : Fin cfg0.N) (k : Fin 16) : iblk m c 5 t (ix1 k) = V m c main_arg5 (ix1 k) := by
  show V m c main_arg5 (((cfg0.win 5).blk t).view.emb (ix1 k)) = _
  refine congrArg (V m c main_arg5) (funext fun ax => Fin.ext ?_)
  obtain ⟨-, -, -, -, -, -, -, -, -, -, e0, -⟩ := index_facts t
  match ax with
  | ⟨0, _⟩ => show win0_5.index t (0 : Fin 1) * 16 + 1 * k.val = k.val; omega

theorem read6 (c : Dev nD) (t : Fin cfg0.N) (a : Fin 16) (k : Fin 1) : iblk m c 6 t (ix2 a k) = V m c main_arg6 (ix2 a k) := by
  show V m c main_arg6 (((cfg0.win 6).blk t).view.emb (ix2 a k)) = _
  refine congrArg (V m c main_arg6) (funext fun ax => Fin.ext ?_)
  obtain ⟨-, -, -, -, -, -, -, -, -, -, -, e0, e1, -⟩ := index_facts t
  match ax with
  | ⟨0, _⟩ => show win0_6.index t (0 : Fin 2) * 16 + 1 * a.val = a.val; omega
  | ⟨1, _⟩ => show win0_6.index t (1 : Fin 2) * 1 + 1 * k.val = k.val; omega

theorem read7 (c : Dev nD) (t : Fin cfg0.N) (k : Fin 1) : iblk m c 7 t (ix1 k) = V m c main_arg7 (ix1 k) := by
  show V m c main_arg7 (((cfg0.win 7).blk t).view.emb (ix1 k)) = _
  refine congrArg (V m c main_arg7) (funext fun ax => Fin.ext ?_)
  obtain ⟨-, -, -, -, -, -, -, -, -, -, -, -, -, e0⟩ := index_facts t
  match ax with
  | ⟨0, _⟩ => show win0_7.index t (0 : Fin 1) * 1 + 1 * k.val = k.val; omega

/-! ## What a point writes back, and the array after the run -/

/-- WHAT POINT `t` WRITES BACK is block `t` of `rows` of the arrays as the region finds them. -/
theorem flushed_eq (c : Dev nD) (t : Fin cfg0.N) :
    (dats m 0 c).flushed 8 t = ((cfg0.win 8).blk t).view.read (Elt Ideal) (rows (V m c main_arg0) (V m c main_v8) (V m c main_arg2) (V m c main_arg3) (V m c main_arg4) (V m c main_arg5) (V m c main_arg6) (V m c main_arg7)) := by
  rw [Value.flushed8]
  unfold out0_8
  rw [View.canon_unit_zero zeros2]
  simp only [View.ld_unit_zero (S := S32x2048) zeros2, View.ld_unit_zero (S := S1000x2048) zeros2, View.ld_unit_zero (S := S1x16) zeros2,
    View.ld_unit_zero (S := S16) zeros1, View.ld_unit_zero (S := S16x16) zeros2, View.ld_unit_zero (S := S16x1) zeros2,
    View.ld_unit_zero (S := S1) zeros1]
  funext j
  obtain ⟨p, q, rfl⟩ : ∃ (p : Fin 32) (q : Fin 1000), j = ix2 p q := ⟨j 0, j 1, eq_ix2 j⟩
  show k0_pay1 (F := Ideal) (k0_pay2 (F := Ideal) (iblk m c 0 t) (iblk m c 1 t) (iblk m c 2 t) (iblk m c 3 t) (iblk m c 4 t) (iblk m c 5 t)) (iblk m c 6 t) (iblk m c 7 t) (ix2 p q)
    = rows (V m c main_arg0) (V m c main_v8) (V m c main_arg2) (V m c main_arg3) (V m c main_arg4) (V m c main_arg5) (V m c main_arg6) (V m c main_arg7) (((cfg0.win 8).blk t).view.emb (ix2 p q))
  refine (Tile.tile_apply (iblk m c 0 t) (iblk m c 1 t) (iblk m c 2 t) (iblk m c 3 t) (iblk m c 4 t) (iblk m c 5 t) (iblk m c 6 t) (iblk m c 7 t) p q).trans ?_
  unfold rows
  rw [col8 t p q]
  simp only [read0 m c t p q, read1, read2, read3, read4, read5, read6, read7]

/-- An index of the array is in point `t`'s block iff each coordinate is in the block's range on its axis. -/
theorem mem_blk (t : Fin cfg0.N) (i : S8192x1000.Idx) :
    i ∈ ((cfg0.win 8).blk t).view.set ↔ ∀ a : Fin 2, win0_8.index t a * S32x1000.size a ≤ (i a).val ∧ (i a).val < win0_8.index t a * S32x1000.size a + S32x1000.size a := by
  show i ∈ ((View.whole main_v9).slice (win0_8.rect t)).set ↔ _
  rw [View.set_slice_whole, Rect.mem_set_unit]
  exact Iff.rfl

/-- Every entry of the result lies in the block of the point that owns its row: row `b` belongs to point `b / 32`. -/
theorem cover (i : S8192x1000.Idx) : ∃ t : Fin cfg0.N, (cfg0.win 8).flush t = true ∧ i ∈ ((cfg0.win 8).blk t).view.set := by
  have hi0 : (i 0).val < 8192 := (i 0).isLt
  have hi1 : (i 1).val < 1000 := (i 1).isLt
  have hN : cfg0.N = 256 := N_0
  have ht : (i 0).val / 32 < cfg0.N := by rw [hN]; omega
  refine ⟨⟨(i 0).val / 32, ht⟩, flush0_8 _, ?_⟩
  rw [mem_blk]
  have e0 : win0_8.index ⟨(i 0).val / 32, ht⟩ (0 : Fin 2) = (i 0).val / 32 := Value.idx_pt8 ⟨(i 0).val / 32, ht⟩
  obtain ⟨-, -, e1, -⟩ := index_facts ⟨(i 0).val / 32, ht⟩
  intro a
  match a with
  | ⟨0, _⟩ =>
    show win0_8.index ⟨(i 0).val / 32, ht⟩ (0 : Fin 2) * 32 ≤ (i 0).val ∧ (i 0).val < win0_8.index ⟨(i 0).val / 32, ht⟩ (0 : Fin 2) * 32 + 32
    omega
  | ⟨1, _⟩ =>
    show win0_8.index ⟨(i 0).val / 32, ht⟩ (1 : Fin 2) * 1000 ≤ (i 1).val ∧ (i 1).val < win0_8.index ⟨(i 0).val / 32, ht⟩ (1 : Fin 2) * 1000 + 1000
    omega

/-- THE ARRAY after the run is `rows` of the arrays as the region finds them. -/
theorem final (c : Dev nD) : (dats m 0 c).arrAt 8 cfg0.N = rows (V m c main_arg0) (V m c main_v8) (V m c main_arg2) (V m c main_arg3) (V m c main_arg4) (V m c main_arg5) (V m c main_arg6) (V m c main_arg7) :=
  (dats m 0 c).arrAt_eq_of_cover 8 (rows (V m c main_arg0) (V m c main_v8) (V m c main_arg2) (V m c main_arg3) (V m c main_arg4) (V m c main_arg5) (V m c main_arg6) (V m c main_arg7)) (fun t _ => flushed_eq m c t) cover

/-! ## The table the region finds -/

/-- The class rows as the region finds them: the host operations before it scale the class embeddings to unit
    length, operation for operation as the reference does. -/
theorem table_eq (c : Dev nD) :
    (V m c main_v8 : S1000x2048.Idx → EReal) = Cert.ReferenceIdeal.Read.val_main_v15 (F := Ideal) (m ((c : Thread nD τ).loc main_arg1)) := by
  dsimp only [Gen.V, Gen.hostOps0]
  after_results
  rfl

/-! ## The run, read -/

/-- The result on core `c` as a function of the memory the program is launched from. -/
def result (c : Dev nD) : S8192x1000.Idx → EReal :=
  rows (m ((c : Thread nD τ).loc main_arg0)) (Cert.ReferenceIdeal.Read.val_main_v15 (F := Ideal) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The array after the run, in terms of the launch memory: no host operation before the region writes an
    argument, and the table is the scaled class embeddings. -/
theorem final_result (c : Dev nD) : (dats m 0 c).arrAt 8 cfg0.N = result m c := by
  rw [final m c, table_eq m c, V_main_arg0 m c, V_main_arg2 m c, V_main_arg3 m c, V_main_arg4 m c, V_main_arg5 m c,
    V_main_arg6 m c, V_main_arg7 m c]
  rfl

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_result m c), (h c).2⟩) (Value.run_blocks m ρ)

end Cert.KernelIdeal.Whole

end
-- ==== Proof.lean ====
/-
  The certificate. Both programs compute, for every row `b` of the input and every class `c`, the softmax over the
  classes of a small network applied to the cosine similarity of the row with each class embedding:

    result (b, c) = softmax_c ( net ( Σ_d  x̂(b, d) * Ŵ(c, d) ) ),     v̂ = v * rsqrt (max (Σ v², ε)),
    net s = max (Σ_h a'_h * w3_h + b3, 0),   a' = clip (a w2 + b2),   a_h = clip (s * w1_h + b1_h),   clip = min 6 ∘ max 0.

  The kernel does it on blocks of 32 rows, with the 32000 (row, class) pairs of a block laid out as the rows of one
  tall matrix for the two small products; the reference does it on the whole arrays with a trailing axis of 16
  units. On the extended reals the differences are: the order and grouping of finite sums (none matters), changes
  of float format (the identity), the reference's extra `max (-inf, ·)` around a maximum that already started from
  `-inf`, and its sums started from an explicit zero. No step needs the inputs to be finite.

  `RowSpec.row` states one row of the result; `Tile.tile_apply` shows the kernel's block stores it, `Whole.run` that the
  array ends holding it row by row, and `Ref.result_apply` that the reference's result is the same function.
-/
import proofs.«169333_j62182536511711_2_alg».proof.Defs
import proofs.«169333_j62182536511711_2_alg».proof.Proof.Gen.Kernel
import proofs.«169333_j62182536511711_2_alg».proof.Proof.Gen.Kernel.Frame
import proofs.«169333_j62182536511711_2_alg».proof.Proof.Gen.KernelIdeal
import proofs.«169333_j62182536511711_2_alg».proof.Proof.Gen.KernelIdeal.Frame
import proofs.«169333_j62182536511711_2_alg».proof.Proof.Gen.KernelIdeal.Value
import proofs.«169333_j62182536511711_2_alg».proof.Proof.Gen.ReferenceIdeal
import proofs.«169333_j62182536511711_2_alg».proof.Proof.Gen.ReferenceIdeal.Run
import proofs.«169333_j62182536511711_2_alg».proof.Proof.Gen.ReferenceIdeal.Read
import proofs.«169333_j62182536511711_2_alg».proof.Proof.Gen.Pre_finite_inputs
import proofs.«169333_j62182536511711_2_alg».proof.Proof.WholeArray
import proofs.«169333_j62182536511711_2_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs and leaves its arguments alone: the generated frame. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference is a straight line of host operations: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- The reference's result, from a memory that agrees with the kernel's on the arguments, is the kernel's: entry
    `(b, c)` of both is the row specification of row `b` of the input at class `c`, over the class embeddings scaled to
    unit length. -/
theorem reference_eq_kernel (m : (ℓ : Loc Cert.KernelIdeal.nD Cert.KernelIdeal.τ Cert.KernelIdeal.sig) → Buf (Elt Ideal) ℓ) (c : Dev Cert.KernelIdeal.nD) :
    Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Whole.result m c := by
  funext i
  obtain ⟨b, q, rfl⟩ : ∃ (b : Fin 8192) (q : Fin 1000), i = ix2 b q := ⟨i 0, i 1, eq_ix2 i⟩
  rw [Cert.Ref.result_apply]
  unfold Cert.KernelIdeal.Whole.result Cert.KernelIdeal.Whole.rows
  simp only [Cert.Ref.unit_W]

/-- On the extended reals the two programs, from memories agreeing on the arguments, end with the same result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact reference_eq_kernel m c

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
